-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : FVec F S8192 .f32) (main_arg1 : FVec F S8192 .f32) (main_arg2 : IVec S8192 32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192 .f32 := Host.absf main_arg1
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  main_v8
-- ==== Kernel.lean ====
abbrev S8192 : Shape := ⟨1, ![8192]⟩
abbrev S1024 : Shape := ⟨1, ![1024]⟩
abbrev S1024x1 : Shape := ⟨2, ![1024, 1]⟩
abbrev S2048 : Shape := ⟨1, ![2048]⟩
abbrev S1x2048 : Shape := ⟨2, ![1, 2048]⟩
abbrev S1024x2048 : Shape := ⟨2, ![1024, 2048]⟩
abbrev S_ : Shape := ⟨0, ![]⟩

abbrev nBuf : Space → Nat
  | .hbm => 18
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .i32⟩
  | .hbm, ⟨3, _⟩ => ⟨S8192, .f32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S_, .i32⟩
  | .hbm, ⟨16, _⟩ => ⟨S_, .f32⟩
  | .hbm, ⟨17, _⟩ => ⟨S_, .f32⟩
  | .local _ .vmem, ⟨0, _⟩ => ⟨S1024, .f32⟩
  | .local _ .vmem, ⟨1, _⟩ => ⟨S1024, .f32⟩
  | .local _ .vmem, ⟨2, _⟩ => ⟨S8192, .f32⟩
  | .local _ .vmem, ⟨3, _⟩ => ⟨S8192, .f32⟩
  | .local _ .vmem, ⟨4, _⟩ => ⟨S1024, .f32⟩
  | .local _ .vmem, ⟨5, _⟩ => ⟨S1024, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def k0_mult1 : BitVec 32 :=
  let c0_i32 : BitVec 32 := 0#32
  let c2048_i32 : BitVec 32 := 2048#32
  let v4 : BitVec 32 := Scalar.muli c0_i32 c2048_i32
  v4
def k0_off1 (c0_i32 : BitVec 32) : Fin 1 → Nat :=
  let c2048_i32 : BitVec 32 := 2048#32
  let v4 : BitVec 32 := Scalar.muli c0_i32 c2048_i32
  let v5 : BitVec 32 := v4
  let v6 : Index := Scalar.indexCast v5
  ![v6.toNat]
def k0_mult2 : BitVec 32 :=
  let c1_i32 : BitVec 32 := 1#32
  let c2048_i32_2 : BitVec 32 := 2048#32
  let v24 : BitVec 32 := Scalar.muli c1_i32 c2048_i32_2
  v24
def k0_mult3 : BitVec 32 :=
  let c2_i32 : BitVec 32 := 2#32
  let c2048_i32_5 : BitVec 32 := 2048#32
  let v44 : BitVec 32 := Scalar.muli c2_i32 c2048_i32_5
  v44
def k0_mult4 : BitVec 32 :=
  let c3_i32 : BitVec 32 := 3#32
  let c2048_i32_8 : BitVec 32 := 2048#32
  let v64 : BitVec 32 := Scalar.muli c3_i32 c2048_i32_8
  v64
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1024_S1024_0 : ∀ a, (![0] : Fin 1 → Nat) a + S1024.size a ≤ S1024.size a
  h_S1024 : 0 < S1024.numel
  shapeCasts_S1024_S1024x1 : S1024.ShapeCasts S1024x1
  h_S2048 : 0 < S2048.numel
  shapeCasts_S2048_S1x2048 : S2048.ShapeCasts S1x2048
  broadcasts_S1024x1_S1024x2048 : S1024x1.Broadcasts S1024x2048
  broadcasts_S1x2048_S1024x2048 : S1x2048.Broadcasts S1024x2048
  shapeCasts_S1x2048_S1x2048 : S1x2048.ShapeCasts S1x2048
  reduces_S1024x2048_S1024 : S1024x2048.Reduces [1] S1024
  bcast_S_S8192 : S_.BroadcastsInDim S8192 (![] : Fin 0 → Fin S8192.rank)
  reducesTo_S8192_S_d0 : S8192.ReducesTo [0] S_
  h_S_ : 0 < S_.numel
  hrank0 : 0 < grid0.rank
  k0_mult1_dvd : 2048 ∣ k0_mult1.toNat
  k0_off1_inb : ∀ (r : Fin 4), ∀ a, (k0_off1 (BitVec.ofNat 32 r.val)) a + S2048.size a ≤ S8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S8192.size a
  hwx0_0 : ∀ i : grid0.Coords, EltTy.bits .f32 = 32 ∨ (Rect.block (s := S8192) S1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192.size a ≤ S8192.size a
  hwx0_1 : ∀ i : grid0.Coords, EltTy.bits .f32 = 32 ∨ (Rect.block (s := S8192) S8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192.size a ≤ S8192.size a
  hwx0_2 : ∀ i : grid0.Coords, EltTy.bits .f32 = 32 ∨ (Rect.block (s := S8192) S8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S8192.size a
  hwx0_3 : ∀ i : grid0.Coords, EltTy.bits .f32 = 32 ∨ (Rect.block (s := S8192) S1024.size (cc0_transform_3 i) (hinb0_3 i)).WholeWords (EltTy.packing .f32)

variable [Facts₀]

abbrev win0_0 : Pipeline.Window sig grid0 :=
  Pipeline.Window.ofSpec (Memref.whole main_arg1) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192, .f32⟩
  | .hbm, ⟨2, _⟩ => ⟨S8192, .i32⟩
  | .hbm, ⟨3, _⟩ => ⟨S8192x1, .f32⟩
  | .hbm, ⟨4, _⟩ => ⟨S1x8192, .f32⟩
  | .hbm, ⟨5, _⟩ => ⟨S8192x8192, .f32⟩
  | .hbm, ⟨6, _⟩ => ⟨S8192x8192, .f32⟩
  | .hbm, ⟨7, _⟩ => ⟨S8192x8192, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .i1⟩
  | .hbm, ⟨12, _⟩ => ⟨S8192x8192, .i1⟩
  | .hbm, ⟨13, _⟩ => ⟨S8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .i32⟩
  | .hbm, ⟨21, _⟩ => ⟨S8192, .i32⟩
  | .hbm, ⟨22, _⟩ => ⟨S8192, .i1⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .i32⟩
  | .hbm, ⟨31, _⟩ => ⟨S_, .i32⟩
  | .hbm, ⟨32, _⟩ => ⟨S_, .f32⟩
  | .hbm, ⟨33, _⟩ => ⟨S_, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_c : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_c_1 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x8192_S8192x8192_1_0 : S8192x8192.Transposes [1, 0] S8192x8192
  reducesTo_S8192x8192_S8192_d1 : S8192x8192.ReducesTo [1] S8192
  h_S_ : 0 < S_.numel
  bcast_S_S8192 : S_.BroadcastsInDim S8192 (![] : Fin 0 → Fin S8192.rank)
  reducesTo_S8192_S_d0 : S8192.ReducesTo [0] S_

variable [Facts₀]

class Facts : Prop extends Facts₀ where

variable [Facts]
-- ==== Proof.BitsBody.lean ====
/-
  The kernel body of the Cox partial-likelihood denominator, at one grid point, as a separation-logic triple,
  and the proof data of its pipeline — for any float instance `F`.

  The pallas_call walks 8 grid points; at point `t` it is handed block `t` (1024 entries) of the time array
  (window 0), ALL of the time array again (window 1), all of the prediction array (window 2), and block `t` of
  the result (window 3). Windows 0 and 1 are two views of ONE array, so each holds half of that array's share:
  both only read it. The body loads the time block, four 2048-wide chunks of the whole time array and of the
  prediction array, and stores ONE whole block of 1024 results; it also loads the result block once, a value it
  never uses.
-/
import proofs.«108566_j4389456576888_2_alg».proof.Proof.Gen.Kernel.Launch
import proofs.«108566_j4389456576888_2_alg».proof.Proof.Gen.Kernel.Skeleton
import proofs.«108566_j4389456576888_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or not (windows 1 and 2 are fetched once: their block index never moves). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- All of a 1024-entry buffer. -/
abbrev rBlk : Rect S1024 := Rect.unit (s := S1024) ![0] S1024.size inb_S1024_S1024_0
/-- Chunk `r` (2048 entries from `2048 · r`) of an 8192-entry buffer. -/
abbrev rChunk (r : Fin 4) : Rect S8192 := Rect.unit (s := S8192) (k0_off1 (BitVec.ofNat 32 r.val)) S2048.size (k0_off1_inb r)

/-! ## What the body leaves in the result window's buffer -/

/-- The result block after the body, from the three input blocks: the one store's value over the loads. -/
def outBlk (x0 : Vec F S1024 .f32) (x1 : Vec F S8192 .f32) (x2 : Vec F S8192 .f32) : Vec F S1024 .f32 :=
  View.canon [⟨rBlk, k0_pay1 (k0_pay2 (View.ld x0 rBlk)) (k0_pay3 (View.ld x0 rBlk))
    (k0_pay4 (View.ld x0 rBlk) (View.ld x1 (rChunk 0)) (View.ld x2 (rChunk 0)) (View.ld x1 (rChunk 1)) (View.ld x2 (rChunk 1)))
    (View.ld x1 (rChunk 2)) (View.ld x2 (rChunk 2)) (View.ld x1 (rChunk 3)) (View.ld x2 (rChunk 3))⟩]

/-- The one store covers the buffer. -/
theorem coverBlk (p0 : Vec F S1024 .f32) (y : S1024.Idx) :
    ∃ pc ∈ ([⟨rBlk, p0⟩] : List (View.Piece (Elt F) S1024 .f32)), y ∈ pc.1.set :=
  View.cover_of_tiled [⟨rBlk, p0⟩] S1024.size (by rfl) y

/-! ## The body's triple -/

set_option maxHeartbeats 1000000 in
/-- On whole staging memrefs, the inputs' at contents `x0 x1 x2` and the result's at anything, the body runs to
    the continuation holding the inputs as they were and the result block at `outBlk` of them. -/
theorem sound_kernel (c : Dev nD) (E : Set ℕ) (i : grid0.Coords) (arg1 : Memref sig .tc .vmem S1024 .f32) (harg1 : arg1.IsWhole)
    (arg2 : Memref sig .tc .vmem S8192 .f32) (harg2 : arg2.IsWhole) (arg3 : Memref sig .tc .vmem S8192 .f32) (harg3 : arg3.IsWhole)
    (arg4 : Memref sig .tc .vmem S1024 .f32) (harg4 : arg4.IsWhole)
    (x0 : Vec F S1024 .f32) (x1 : Vec F S8192 .f32) (x2 : Vec F S8192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__cox_denom_kernel i arg1 harg1 arg2 harg2 arg3 harg3 arg4 harg4) K := by
  simp only [cc0__cox_denom_kernel_eq_skeleton]; unfold cc0__cox_denom_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverBlk _)

/-! ## The pipeline's proof data -/

/-- On core `c`: the arrays as the region finds them; after the body at point `t` each input's buffer at its
    block and the result's at `outBlk` of the input blocks; the invariant the scoped rest and the generator
    register, untouched; nothing owed; the time array's share halved between the two windows that read it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outBlk (iblk V c 0 t) (iblk V c 1 t) (iblk V c 2 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Body

end
-- ==== Proof.BitsRun.lean ====
/-
  The whole run of the kernel program: the pallas_call as one region of @main followed by the host operations
  that turn the per-row denominators into the loss — for any float instance `F`.

  Two windows of the pallas_call read ONE array (the survival times: blockwise through window 0, whole through
  window 1). At the region's entry the array's full share is therefore halved between them, and at the exit the
  halves — both still at the contents the region found, since an input window never writes — are joined again.
-/
import proofs.«108566_j4389456576888_2_alg».proof.Proof.BitsBody

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Body

variable {F : FTy → Type} [FloatOps F]

local notation "𝕄" => MT nD τ sig Unit (Elt F) ℕ (UR sig nD τ) ℕ

/-! ## The arrays behind the windows, and the windows' shares of them -/

/-- The three buffers behind the four windows. -/
theorem arrRefs_eq : Finset.univ.image (Pipeline.arrRef spec0) = [main_arg1, main_arg0, main_v0].toFinset := by decide

/-- The buffers behind the windows, each whole at the full share at contents `V'`, ARE the pipeline's arrays at
    contents `G` read off `V'`: the time array's full share is the two halves windows 0 and 1 hold. -/
theorem arrays_iff (V : (c : Dev nD) → (b : Ref sig .tc) → Buf (Elt F) ((c : Thread nD τ).loc b)) (c : Dev nD)
    (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    (Pipeline.arrBufs (Ix := Unit) (Name := ℕ) (U := UR sig nD τ) (Lvl := ℕ) spec0 c V' : sProp 𝕄) ⊣⊢ (dat V c).arrays G := by
  unfold Pipeline.arrBufs Dat.arrays
  rw [bigSep_eq_bigSepL_of_eq _ arrRefs_eq (by decide), bigSep_W0]
  rw [(arr_whole0 0).set_eq_univ, (arr_whole0 2).set_eq_univ, (arr_whole0 3).set_eq_univ,
    show (dat V c).share 0 = fullShare.left from rfl, show (dat V c).share 1 = fullShare.right from rfl,
    show (dat V c).share 2 = fullShare from rfl, show (dat V c).share 3 = fullShare from rfl, hG 0, hG 1, hG 2, hG 3]
  show iprop((((c : Thread nD τ).loc main_arg1) ↦{fullShare} V' main_arg1) ∗ (((c : Thread nD τ).loc main_arg0) ↦{fullShare} V' main_arg0)
      ∗ (((c : Thread nD τ).loc main_v0) ↦{fullShare} V' main_v0)) ⊣⊢ _
  constructor
  · iintro ⟨H1, H0, Hv⟩
    ihave H1' := (pointsTo_share (PosShare.mem_left_op_right fullShare)).1 $$ H1
    icases H1' with ⟨Hl, Hr⟩
    isplitl [Hl]; · iexact Hl
    isplitl [Hr]; · iexact Hr
    isplitl [H0]; · iexact H0
    iexact Hv
  · iintro ⟨Hl, Hr, H0, Hv⟩
    isplitl [Hl Hr]
    · iapply (pointsTo_share (PosShare.mem_left_op_right fullShare)).2
      isplitl [Hl]; · iexact Hl
      iexact Hr
    isplitl [H0]; · iexact H0
    iexact Hv

/-! ## The buffer contents at the two boundaries of @main -/

variable (m : (ℓ : Loc nD τ sig) → Buf (Elt F) ℓ) (ρ : Dev nD → PrngReg)

/-- Core `c`'s buffers at launch: what the region is entered from (@main begins with the pallas_call). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- The per-row denominators: what the eight write-backs leave in the result array. -/
def denom (c : Dev nD) : (Proc.devRef .tc main_v0 : DevRef τ sig).ty.Contents (Elt F) := (dat (V0 m ρ) c).arrAt 3 cfg0.N

/-- At the region's exit: the result array at the denominators, every other buffer as entered. -/
def W1 (c : Dev nD) : Valuation τ sig (Elt F) := fun b =>
  if h : Proc.devRef .tc main_v0 = b then cast (congrArg (fun b' : DevRef τ sig => b'.ty.Contents (Elt F)) h) (denom m ρ c)
  else W0 m ρ c b
theorem W1_v0 (c : Dev nD) : W1 m ρ c (Proc.devRef .tc main_v0) = denom m ρ c := by
  unfold W1; rw [dif_pos rfl]; rfl
theorem W1_of_ne (c : Dev nD) (b : Ref sig .tc) (hb : main_v0 ≠ b) : W1 m ρ c (Proc.devRef .tc b) = W0 m ρ c (Proc.devRef .tc b) := by
  unfold W1; rw [dif_neg]; exact fun e => hb (Proc.devRef_injective _ e)
/-- The same read at the TensorCore's references. -/
abbrev V1 : (c : Dev nD) → (b : Ref sig .tc) → Buf (Elt F) ((c : Thread nD τ).loc b) := fun c b => W1 m ρ c b

/-- At the exit each window's array holds what `V1` says: an input's array is as entered, the result's is the
    denominators. -/
theorem hF (c : Dev nD) : ∀ w : Fin cfg0.W, (dat (V0 m ρ) c).arrAt w cfg0.N = V1 m ρ c (Pipeline.arrRef spec0 w)
  | ⟨0, _⟩ => ((dat (V0 m ρ) c).arrAt_in 0 rfl _).trans ((A_eq (V0 m ρ) c 0).trans (W1_of_ne m ρ c main_arg1 (by decide)).symm)
  | ⟨1, _⟩ => ((dat (V0 m ρ) c).arrAt_in 1 rfl _).trans ((A_eq (V0 m ρ) c 1).trans (W1_of_ne m ρ c main_arg1 (by decide)).symm)
  | ⟨2, _⟩ => ((dat (V0 m ρ) c).arrAt_in 2 rfl _).trans ((A_eq (V0 m ρ) c 2).trans (W1_of_ne m ρ c main_arg0 (by decide)).symm)
  | ⟨3, _⟩ => (W1_v0 m ρ c).symm
theorem hrest (c : Dev nD) : ∀ b, b ∉ Finset.univ.image (Pipeline.arrRef spec0) → V1 m ρ c b = V0 m ρ c b :=
  fun b hb => W1_of_ne m ρ c b fun e => hb (e ▸ Finset.mem_image.mpr ⟨3, Finset.mem_univ _, rfl⟩)

/-- After the host operations that follow the region: the end of @main. -/
abbrev W2 : Dev nD → Valuation τ sig (Elt F) := fun c => StableHlo.after hostOps1 (W1 m ρ c)

/-! ### The arguments end as launched: neither the region nor a host operation writes one -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V0 m ρ) c
abbrev 𝒱₀ : Variants := Variants.none
abbrev L : GSem nD τ sig → Finset Unit := fun _ => ∅
abbrev lv : GSem nD τ sig → Unit → ℕ := fun _ _ => 0
/-- What rides beside the buffers through both segments: the generator register at some state and the core
    owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations after the region as a segment, from the region's exit contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

/-- The last thread state without the `owes`: every unscoped buffer at the end contents, the generator register
    at some state. -/
abbrev Tₙ (c : Dev nD) : sProp 𝕄 := iprop(StableHlo.held (c : Thread nD τ) (Pipeline.ucRefs τ sig) (W2 m ρ c) ∗ ∃ r, prngReg c r)

/-! ## The region as a segment -/

/-- ENTRY, the arrays' part: every unscoped buffer at the launch contents is the pipeline's arrays at their entry
    contents (the time array's share halved) beside the buffers no window stages. -/
theorem entry_split (c : Dev nD) :
    (StableHlo.held (c : Thread nD τ) (Pipeline.ucRefs τ sig) (W0 m ρ c) : sProp 𝕄)
      ⊢ iprop((dat (V0 m ρ) c).arrays ((dat (V0 m ρ) c).arrAt · 0)
          ∗ Pipeline.unscopedRest (Ix := Unit) (Name := ℕ) (U := UR sig nD τ) (Lvl := ℕ) spec0 c (V0 m ρ c)) := by
  rw [← Pipeline.unscopedBufs_held c (W0 m ρ c), Pipeline.unscopedBufs_split₀ cfgs 0 winFacts₀0.arr_unscoped c (V0 m ρ c)]
  exact sep_mono (arrays_iff (V0 m ρ) c (V0 m ρ c) _ (fun w => A_eq (V0 m ρ) c w)).1 .rfl

/-- EXIT, the arrays' part: the arrays at their final contents (the halves joined) beside the unstaged buffers as
    entered are every unscoped buffer at the exit contents. -/
theorem exit_join (c : Dev nD) :
    iprop((dat (V0 m ρ) c).arrays ((dat (V0 m ρ) c).arrAt · cfg0.N)
        ∗ Pipeline.unscopedRest (Ix := Unit) (Name := ℕ) (U := UR sig nD τ) (Lvl := ℕ) spec0 c (V0 m ρ c))
      ⊢ (StableHlo.held (c : Thread nD τ) (Pipeline.ucRefs τ sig) (W1 m ρ c) : sProp 𝕄) := by
  rw [← Pipeline.unscopedBufs_held c (W1 m ρ c), Pipeline.unscopedBufs_split₀ cfgs 0 winFacts₀0.arr_unscoped c (V1 m ρ c)]
  refine sep_mono (arrays_iff (V0 m ρ) c (V1 m ρ c) _ (hF m ρ c)).2 (Entails.of_eq ?_)
  unfold Pipeline.unscopedRest
  exact bigSep_congr fun b hb => by rw [hrest m ρ c b (Finset.mem_sdiff.mp hb).2]

set_option backward.isDefEq.respectTransparency.types false in
/-- THE REGION over the thread state: entered from every unscoped buffer at the launch contents, left at the exit
    contents. Its arrays are split out of the unscoped buffers (the time array's share halved between its two
    windows) and put back joined; the generator register goes into the body's invariant and comes back; nothing
    is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    show iprop((dat (V0 m ρ) c).arrays ((dat (V0 m ρ) c).arrAt · cfg0.N) ∗ (dat (V0 m ρ) c).owesAt () (Fin.last cfg0.N)
        ∗ (∃ r, prngReg c r) ∗ Pipeline.unscopedRest (Ix := Unit) (Name := ℕ) (U := UR sig nD τ) (Lvl := ℕ) spec0 c (V0 m ρ c))
      ⊢ |={Set.univ}=> iprop(StableHlo.held (c : Thread nD τ) (Pipeline.ucRefs τ sig) (W1 m ρ c) ∗ R c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's two segments: the pallas_call, then the host operations. -/
abbrev segs : List (Pipeline.Seg (pcfgs (F := F)) adm (pdats m ρ) () defs₀ 𝒱₀ L lv) :=
  [ .region (reg0 m ρ), .host (hseg m ρ) ]
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on
    the TensorCores terminates, nothing faulting, and every final state has every unscoped buffer at the end
    contents `W2`: in particular the result at `W2`'s and each argument as launched. -/
theorem run : θ_run defs (onTc (τ := τ) (main (F := F))) ⟨m, fun _ => 0, ρ⟩ (fun r => ∀ c : Dev nD,
      r.2.mem ((c.tc : Thread nD τ).loc main_v11) = W2 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => show iprop(StableHlo.held (c : Thread nD τ) (Pipeline.ucRefs τ sig) (W2 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v11 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.Kernel.Run

end
-- ==== Proof.IdealBody.lean ====
/-
  The kernel body of the Cox partial-likelihood denominator, at one grid point, as a separation-logic triple,
  and the proof data of its pipeline — for any float instance `F`.

  The pallas_call walks 8 grid points; at point `t` it is handed block `t` (1024 entries) of the time array
  (window 0), ALL of the time array again (window 1), all of the prediction array (window 2), and block `t` of
  the result (window 3). Windows 0 and 1 are two views of ONE array, so each holds half of that array's share:
  both only read it. The body loads the time block, four 2048-wide chunks of the whole time array and of the
  prediction array, and stores ONE whole block of 1024 results; it also loads the result block once, a value it
  never uses.
-/
import proofs.«108566_j4389456576888_2_alg».proof.Proof.Gen.KernelIdeal.Launch
import proofs.«108566_j4389456576888_2_alg».proof.Proof.Gen.KernelIdeal.Skeleton
import proofs.«108566_j4389456576888_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it
    there or not (windows 1 and 2 are fetched once: their block index never moves). -/
theorem before0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses -/

/-- All of a 1024-entry buffer. -/
abbrev rBlk : Rect S1024 := Rect.unit (s := S1024) ![0] S1024.size inb_S1024_S1024_0
/-- Chunk `r` (2048 entries from `2048 · r`) of an 8192-entry buffer. -/
abbrev rChunk (r : Fin 4) : Rect S8192 := Rect.unit (s := S8192) (k0_off1 (BitVec.ofNat 32 r.val)) S2048.size (k0_off1_inb r)

/-! ## What the body leaves in the result window's buffer -/

/-- The result block after the body, from the three input blocks: the one store's value over the loads. -/
def outBlk (x0 : Vec F S1024 .f32) (x1 : Vec F S8192 .f32) (x2 : Vec F S8192 .f32) : Vec F S1024 .f32 :=
  View.canon [⟨rBlk, k0_pay1 (k0_pay2 (View.ld x0 rBlk)) (k0_pay3 (View.ld x0 rBlk))
    (k0_pay4 (View.ld x0 rBlk) (View.ld x1 (rChunk 0)) (View.ld x2 (rChunk 0)) (View.ld x1 (rChunk 1)) (View.ld x2 (rChunk 1)))
    (View.ld x1 (rChunk 2)) (View.ld x2 (rChunk 2)) (View.ld x1 (rChunk 3)) (View.ld x2 (rChunk 3))⟩]

/-- The one store covers the buffer. -/
theorem coverBlk (p0 : Vec F S1024 .f32) (y : S1024.Idx) :
    ∃ pc ∈ ([⟨rBlk, p0⟩] : List (View.Piece (Elt F) S1024 .f32)), y ∈ pc.1.set :=
  View.cover_of_tiled [⟨rBlk, p0⟩] S1024.size (by rfl) y

/-! ## The body's triple -/

set_option maxHeartbeats 1000000 in
/-- On whole staging memrefs, the inputs' at contents `x0 x1 x2` and the result's at anything, the body runs to
    the continuation holding the inputs as they were and the result block at `outBlk` of them. -/
theorem sound_kernel (c : Dev nD) (E : Set ℕ) (i : grid0.Coords) (arg1 : Memref sig .tc .vmem S1024 .f32) (harg1 : arg1.IsWhole)
    (arg2 : Memref sig .tc .vmem S8192 .f32) (harg2 : arg2.IsWhole) (arg3 : Memref sig .tc .vmem S8192 .f32) (harg3 : arg3.IsWhole)
    (arg4 : Memref sig .tc .vmem S1024 .f32) (harg4 : arg4.IsWhole)
    (x0 : Vec F S1024 .f32) (x1 : Vec F S8192 .f32) (x2 : Vec F S8192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlk x0 x1 x2)) -∗ K ⟨⟩))
      ⊢ wp frame (wpE (defs₀ (F := F)) Variants.none c none) E (cc0__cox_denom_kernel i arg1 harg1 arg2 harg2 arg3 harg3 arg4 harg4) K := by
  simp only [cc0__cox_denom_kernel_eq_skeleton]; unfold cc0__cox_denom_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverBlk _)

/-! ## The pipeline's proof data -/

/-- On core `c`: the arrays as the region finds them; after the body at point `t` each input's buffer at its
    block and the result's at `outBlk` of the input blocks; the invariant the scoped rest and the generator
    register, untouched; nothing owed; the time array's share halved between the two windows that read it. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => outBlk (iblk V c 0 t) (iblk V c 1 t) (iblk V c 2 t)
  Φ _ := Pipeline.ΦA spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dat V c).A w = V c (Pipeline.arrRef spec0 w) := by
  dsimp only [dat]

theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) :
    (dat V c).after 3 t = outBlk (iblk V c 0 t) (iblk V c 1 t) (iblk V c 2 t) := by dsimp only [dat]

theorem before_0 (c : Dev nD) (t : Fin cfg0.N) (d) : (dat V c).before 0 t d = iblk V c 0 t :=
  before0_of V (dat V c) (A_eq V c 0) (after_0 V c) t d
theorem before_1 (c : Dev nD) (t : Fin cfg0.N) (d) : (dat V c).before 1 t d = iblk V c 1 t :=
  before1_of V (dat V c) (A_eq V c 1) (after_1 V c) t d
theorem before_2 (c : Dev nD) (t : Fin cfg0.N) (d) : (dat V c).before 2 t d = iblk V c 2 t :=
  before2_of V (dat V c) (A_eq V c 2) (after_2 V c) t d

/-! ## The body obligation, at a generic point -/

def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so `sound_kernel` applies; the invariant and
    the core's `owes` pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).Φ t.succ = (dat V c).Φ t.castSucc from rfl,
    show (dat V c).owesAt () t.succ = (dat V c).owesAt () t.castSucc from rfl,
    after_0, after_1, after_2, after_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk V c 0 t) (iblk V c 1 t) (iblk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Body

end
-- ==== Proof.IdealRun.lean ====
/-
  The whole run of the kernel program: the pallas_call as one region of @main followed by the host operations
  that turn the per-row denominators into the loss — for any float instance `F`.

  Two windows of the pallas_call read ONE array (the survival times: blockwise through window 0, whole through
  window 1). At the region's entry the array's full share is therefore halved between them, and at the exit the
  halves — both still at the contents the region found, since an input window never writes — are joined again.
-/
import proofs.«108566_j4389456576888_2_alg».proof.Proof.IdealBody

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Body

variable {F : FTy → Type} [FloatOps F]

local notation "𝕄" => MT nD τ sig Unit (Elt F) ℕ (UR sig nD τ) ℕ

/-! ## The arrays behind the windows, and the windows' shares of them -/

/-- The three buffers behind the four windows. -/
theorem arrRefs_eq : Finset.univ.image (Pipeline.arrRef spec0) = [main_arg1, main_arg0, main_v0].toFinset := by decide

/-- The buffers behind the windows, each whole at the full share at contents `V'`, ARE the pipeline's arrays at
    contents `G` read off `V'`: the time array's full share is the two halves windows 0 and 1 hold. -/
theorem arrays_iff (V : (c : Dev nD) → (b : Ref sig .tc) → Buf (Elt F) ((c : Thread nD τ).loc b)) (c : Dev nD)
    (V' : (b : Ref sig .tc) → Buf (Elt F) ((c : Thread nD τ).loc b))
    (G : (w : Fin cfg0.W) → Buf (Elt F) ((cfg0.win w).arr.view.loc (c : Thread nD τ)))
    (hG : ∀ w, G w = V' (Pipeline.arrRef spec0 w)) :
    (Pipeline.arrBufs (Ix := Unit) (Name := ℕ) (U := UR sig nD τ) (Lvl := ℕ) spec0 c V' : sProp 𝕄) ⊣⊢ (dat V c).arrays G := by
  unfold Pipeline.arrBufs Dat.arrays
  rw [bigSep_eq_bigSepL_of_eq _ arrRefs_eq (by decide), bigSep_W0]
  rw [(arr_whole0 0).set_eq_univ, (arr_whole0 2).set_eq_univ, (arr_whole0 3).set_eq_univ,
    show (dat V c).share 0 = fullShare.left from rfl, show (dat V c).share 1 = fullShare.right from rfl,
    show (dat V c).share 2 = fullShare from rfl, show (dat V c).share 3 = fullShare from rfl, hG 0, hG 1, hG 2, hG 3]
  show iprop((((c : Thread nD τ).loc main_arg1) ↦{fullShare} V' main_arg1) ∗ (((c : Thread nD τ).loc main_arg0) ↦{fullShare} V' main_arg0)
      ∗ (((c : Thread nD τ).loc main_v0) ↦{fullShare} V' main_v0)) ⊣⊢ _
  constructor
  · iintro ⟨H1, H0, Hv⟩
    ihave H1' := (pointsTo_share (PosShare.mem_left_op_right fullShare)).1 $$ H1
    icases H1' with ⟨Hl, Hr⟩
    isplitl [Hl]; · iexact Hl
    isplitl [Hr]; · iexact Hr
    isplitl [H0]; · iexact H0
    iexact Hv
  · iintro ⟨Hl, Hr, H0, Hv⟩
    isplitl [Hl Hr]
    · iapply (pointsTo_share (PosShare.mem_left_op_right fullShare)).2
      isplitl [Hl]; · iexact Hl
      iexact Hr
    isplitl [H0]; · iexact H0
    iexact Hv

/-! ## The buffer contents at the two boundaries of @main -/

variable (m : (ℓ : Loc nD τ sig) → Buf (Elt F) ℓ) (ρ : Dev nD → PrngReg)

/-- Core `c`'s buffers at launch: what the region is entered from (@main begins with the pallas_call). -/
abbrev W0 : Dev nD → Valuation τ sig (Elt F) := fun c b => (s₀ m ρ).mem ((c : Dev nD), b)
/-- The same read at the TensorCore's references. -/
abbrev V0 : (c : Dev nD) → (b : Ref sig .tc) → Buf (Elt F) ((c : Thread nD τ).loc b) := fun c b => W0 m ρ c b

/-- The per-row denominators: what the eight write-backs leave in the result array. -/
def denom (c : Dev nD) : (Proc.devRef .tc main_v0 : DevRef τ sig).ty.Contents (Elt F) := (dat (V0 m ρ) c).arrAt 3 cfg0.N

/-- At the region's exit: the result array at the denominators, every other buffer as entered. -/
def W1 (c : Dev nD) : Valuation τ sig (Elt F) := fun b =>
  if h : Proc.devRef .tc main_v0 = b then cast (congrArg (fun b' : DevRef τ sig => b'.ty.Contents (Elt F)) h) (denom m ρ c)
  else W0 m ρ c b
theorem W1_v0 (c : Dev nD) : W1 m ρ c (Proc.devRef .tc main_v0) = denom m ρ c := by
  unfold W1; rw [dif_pos rfl]; rfl
theorem W1_of_ne (c : Dev nD) (b : Ref sig .tc) (hb : main_v0 ≠ b) : W1 m ρ c (Proc.devRef .tc b) = W0 m ρ c (Proc.devRef .tc b) := by
  unfold W1; rw [dif_neg]; exact fun e => hb (Proc.devRef_injective _ e)
/-- The same read at the TensorCore's references. -/
abbrev V1 : (c : Dev nD) → (b : Ref sig .tc) → Buf (Elt F) ((c : Thread nD τ).loc b) := fun c b => W1 m ρ c b

/-- At the exit each window's array holds what `V1` says: an input's array is as entered, the result's is the
    denominators. -/
theorem hF (c : Dev nD) : ∀ w : Fin cfg0.W, (dat (V0 m ρ) c).arrAt w cfg0.N = V1 m ρ c (Pipeline.arrRef spec0 w)
  | ⟨0, _⟩ => ((dat (V0 m ρ) c).arrAt_in 0 rfl _).trans ((A_eq (V0 m ρ) c 0).trans (W1_of_ne m ρ c main_arg1 (by decide)).symm)
  | ⟨1, _⟩ => ((dat (V0 m ρ) c).arrAt_in 1 rfl _).trans ((A_eq (V0 m ρ) c 1).trans (W1_of_ne m ρ c main_arg1 (by decide)).symm)
  | ⟨2, _⟩ => ((dat (V0 m ρ) c).arrAt_in 2 rfl _).trans ((A_eq (V0 m ρ) c 2).trans (W1_of_ne m ρ c main_arg0 (by decide)).symm)
  | ⟨3, _⟩ => (W1_v0 m ρ c).symm
theorem hrest (c : Dev nD) : ∀ b, b ∉ Finset.univ.image (Pipeline.arrRef spec0) → V1 m ρ c b = V0 m ρ c b :=
  fun b hb => W1_of_ne m ρ c b fun e => hb (e ▸ Finset.mem_image.mpr ⟨3, Finset.mem_univ _, rfl⟩)

/-- After the host operations that follow the region: the end of @main. -/
abbrev W2 : Dev nD → Valuation τ sig (Elt F) := fun c => StableHlo.after hostOps1 (W1 m ρ c)

/-! ### The arguments end as launched: neither the region nor a host operation writes one -/

theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := StableHlo.after_of_forall_not_mem (b := Proc.devRef .tc main_arg0) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg1) := W1_of_ne m ρ c main_arg1 (by decide)
    _ = m ((c : Thread nD τ).loc main_arg1) := rfl
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := StableHlo.after_of_forall_not_mem (b := Proc.devRef .tc main_arg2) _ _ (List.forall_iff_forall_mem.mp (by
          simp only [hostOps1, List.Forall, StableHlo.nullary_writes, StableHlo.unary_writes, StableHlo.binary_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-! ## The proof data family and the thread state -/

abbrev adm : (p : Fin 1) → (pcfgs (F := F) p).Adm := fun p => (cfgs p).toPCfg_adm
def pdats : (p : Fin 1) → (c : Dev nD) → Dat τ (Elt F) Unit ℕ (UR sig nD τ) ℕ (Pipeline.pin (pcfgs (F := F)) adm p) c
  | ⟨0, _⟩ => fun c => dat (V0 m ρ) c
abbrev 𝒱₀ : Variants := Variants.none
abbrev L : GSem nD τ sig → Finset Unit := fun _ => ∅
abbrev lv : GSem nD τ sig → Unit → ℕ := fun _ _ => 0
/-- What rides beside the buffers through both segments: the generator register at some state and the core
    owing nothing. -/
abbrev R (c : Dev nD) : sProp 𝕄 := iprop((∃ r, prngReg c r) ∗ ∃ W, owes (c : Thread nD τ) (0 : CellTallies nD τ sig Unit) W)

theorem hostOps1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The host operations after the region as a segment, from the region's exit contents. -/
abbrev hseg : Pipeline.HostSeg (Name := ℕ) (U := UR sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (W1 m ρ) R

/-- The last thread state without the `owes`: every unscoped buffer at the end contents, the generator register
    at some state. -/
abbrev Tₙ (c : Dev nD) : sProp 𝕄 := iprop(StableHlo.held (c : Thread nD τ) (Pipeline.ucRefs τ sig) (W2 m ρ c) ∗ ∃ r, prngReg c r)

/-! ## The region as a segment -/

/-- ENTRY, the arrays' part: every unscoped buffer at the launch contents is the pipeline's arrays at their entry
    contents (the time array's share halved) beside the buffers no window stages. -/
theorem entry_split (c : Dev nD) :
    (StableHlo.held (c : Thread nD τ) (Pipeline.ucRefs τ sig) (W0 m ρ c) : sProp 𝕄)
      ⊢ iprop((dat (V0 m ρ) c).arrays ((dat (V0 m ρ) c).arrAt · 0)
          ∗ Pipeline.unscopedRest (Ix := Unit) (Name := ℕ) (U := UR sig nD τ) (Lvl := ℕ) spec0 c (V0 m ρ c)) := by
  rw [← Pipeline.unscopedBufs_held c (W0 m ρ c), Pipeline.unscopedBufs_split₀ cfgs 0 winFacts₀0.arr_unscoped c (V0 m ρ c)]
  exact sep_mono (arrays_iff (V0 m ρ) c (V0 m ρ c) _ (fun w => A_eq (V0 m ρ) c w)).1 .rfl

/-- EXIT, the arrays' part: the arrays at their final contents (the halves joined) beside the unstaged buffers as
    entered are every unscoped buffer at the exit contents. -/
theorem exit_join (c : Dev nD) :
    iprop((dat (V0 m ρ) c).arrays ((dat (V0 m ρ) c).arrAt · cfg0.N)
        ∗ Pipeline.unscopedRest (Ix := Unit) (Name := ℕ) (U := UR sig nD τ) (Lvl := ℕ) spec0 c (V0 m ρ c))
      ⊢ (StableHlo.held (c : Thread nD τ) (Pipeline.ucRefs τ sig) (W1 m ρ c) : sProp 𝕄) := by
  rw [← Pipeline.unscopedBufs_held c (W1 m ρ c), Pipeline.unscopedBufs_split₀ cfgs 0 winFacts₀0.arr_unscoped c (V1 m ρ c)]
  refine sep_mono (arrays_iff (V0 m ρ) c (V1 m ρ c) _ (hF m ρ c)).2 (Entails.of_eq ?_)
  unfold Pipeline.unscopedRest
  exact bigSep_congr fun b hb => by rw [hrest m ρ c b (Finset.mem_sdiff.mp hb).2]

set_option backward.isDefEq.respectTransparency.types false in
/-- THE REGION over the thread state: entered from every unscoped buffer at the launch contents, left at the exit
    contents. Its arrays are split out of the unscoped buffers (the time array's share halved between its two
    windows) and put back joined; the generator register goes into the body's invariant and comes back; nothing
    is owed; the kernel has no semaphore of its own. -/
def reg0 : Pipeline.RegionSeg (pcfgs (F := F)) adm (pdats m ρ) () defs₀ 𝒱₀ L lv 0 where
  win := winFacts₀0
  block_pos := block_pos0
  stage_whole := stage_whole0
  K := PEmpty
  osem k := k.elim
  ho := Pipeline.OwnSemFacts.none _
  hbody c := (body_obligation (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := entry_split m ρ c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := exit_join m ρ c
    show iprop((dat (V0 m ρ) c).arrays ((dat (V0 m ρ) c).arrAt · cfg0.N) ∗ (dat (V0 m ρ) c).owesAt () (Fin.last cfg0.N)
        ∗ (∃ r, prngReg c r) ∗ Pipeline.unscopedRest (Ix := Unit) (Name := ℕ) (U := UR sig nD τ) (Lvl := ℕ) spec0 c (V0 m ρ c))
      ⊢ |={Set.univ}=> iprop(StableHlo.held (c : Thread nD τ) (Pipeline.ucRefs τ sig) (W1 m ρ c) ∗ R c)
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the launch -/

/-- @main's two segments: the pallas_call, then the host operations. -/
abbrev segs : List (Pipeline.Seg (pcfgs (F := F)) adm (pdats m ρ) () defs₀ 𝒱₀ L lv) :=
  [ .region (reg0 m ρ), .host (hseg m ρ) ]
theorem main_run (c : Dev nD) : main (F := F) c = Pipeline.Seg.run (segs m ρ) := (main_chain c).trans (by chain_rfl)

set_option backward.isDefEq.respectTransparency.types false in
/-- THE RUN: at the compiled mesh, from any memory with zero counters, every weakly fair execution of @main on
    the TensorCores terminates, nothing faulting, and every final state has every unscoped buffer at the end
    contents `W2`: in particular the result at `W2`'s and each argument as launched. -/
theorem run : θ_run defs (onTc (τ := τ) (main (F := F))) ⟨m, fun _ => 0, ρ⟩ (fun r => ∀ c : Dev nD,
      r.2.mem ((c.tc : Thread nD τ).loc main_v11) = W2 m ρ c (Proc.devRef .tc main_v11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun c => show iprop(StableHlo.held (c : Thread nD τ) (Pipeline.ucRefs τ sig) (W2 m ρ c) ∗ R c)
        ⊢ iprop(Tₙ m ρ c ∗ ∃ W, owes (c : Thread nD τ) (0 : CellTallies nD τ sig Unit) W) from by
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c =>
      ⟨h c _ (mem_uc main_v11 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c)⟩)

end Cert.KernelIdeal.Run

end
-- ==== Proof.LibColumns.lean ====
/-
  Column forms of a keepdims reduction, read at coordinates: a vector of `a` entries cast to the column `[a, 1]` reads
  its entry `i` at `(i, 0)`, and a column `[a, 1]` broadcast along `b` columns reads, at `(p, c)`, the column at
  `(p, 0)` — so a per-row value (a row maximum, a row sum) laid against every entry of its row is that row's value.
-/
import Idealize.ShloMosaic.Lib.ValueIdx
import Idealize.ShloMosaic.Lib.Pipeline.Value

namespace Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value cast to a column and broadcast along the row reads, at `(p, c)`, the value of row `p`. -/
theorem broadcastTo_column_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

end Idealize.ShloMosaic.ValueIdx
-- ==== Proof.CoxSum.lean ====
/-
  The algebra that joins the two programs' per-row denominators, over the extended reals.

  Row `i`'s denominator is the sum over all `j` of the hazard `exp p_j` wherever `t_i · t_j ≥ t_i · t_i`. One
  program forms the term as a select between the hazard and zero and sums the 8192 indices as four consecutive
  chunks of 2048 added onto zero; the other multiplies the hazard by the comparison bit read as 0 or 1, with the
  product written `t_j · t_i`, and sums all 8192 at once. Nothing here needs finiteness: the laws used are the
  commutativity of the product, `1 · x = x`, `0 · x = 0`, and the associativity of a finite sum.
-/
import Idealize.ShloMosaic.PureOps.Ideal.Laws
import Idealize.ShloMosaic.Lib.ValueIdx

noncomputable section

namespace Cert.CoxSum

open Idealize.ShloMosaic Idealize.ShloMosaic.ValueIdx

/-- One index's term at time `a` and threshold `s`: the hazard `exp p` where `a · t` reaches `s`, else the
    zero word's value. -/
def term (a s t p : EReal) : EReal :=
  Scalar.select (FloatOps.cmpf (F := Ideal) (φ := .f32) .oge (a * t) s) (Ideal.exp p) (Ideal.ofBits .f32 0x00000000#32)

/-- A comparison bit read as the number 0 or 1, times `x`, is the select between `x` and zero. -/
theorem bit_mul (b : BitVec 1) (x : EReal) :
    (FloatOps.uitofp (F := Ideal) .f32 b : EReal) * x = Scalar.select b x (Ideal.ofBits .f32 0x00000000#32) := by
  by_cases h : b = 1#1
  · subst h
    rw [select_one]
    show (((1#1 : BitVec 1).toNat : ℝ) : EReal) * x = x
    simp
  · obtain rfl := eq_zero_of_ne_one h
    rw [select_zero, Ideal.ofBits_zero_f32]
    show (((0#1 : BitVec 1).toNat : ℝ) : EReal) * x = 0
    simp

/-- The host's term — the bit of `t · a ≥ a · a` as a number, times the host's `exp p` — is the select form. -/
theorem term_host (a t p : EReal) :
    FloatOps.mulf (F := Ideal) (φ := .f32)
        (FloatOps.uitofp .f32 (FloatOps.cmpf (F := Ideal) (φ := .f32) .oge (FloatOps.mulf (F := Ideal) (φ := .f32) t a) (FloatOps.mulf (F := Ideal) (φ := .f32) a a)))
        (FloatOps.hostUnary (F := Ideal) (φ := .f32) .exp p)
      = term a (a * a) t p := by
  unfold term
  rw [Ideal.mulf_def, Ideal.mulf_def, Ideal.mulf_def, bit_mul, mul_comm t a, Ideal.hostUnary_exp_def]

/-- A sum over 8192 indices is the sums over its four consecutive chunks of 2048, added left to right. -/
theorem sum_four_chunks {M : Type} [AddCommMonoid M] (f : Fin 8192 → M) :
    ∑ j : Fin 8192, f j
      = (((∑ q : Fin 2048, f ⟨q.val, by omega⟩) + ∑ q : Fin 2048, f ⟨2048 + q.val, by omega⟩)
          + ∑ q : Fin 2048, f ⟨4096 + q.val, by omega⟩) + ∑ q : Fin 2048, f ⟨6144 + q.val, by omega⟩ := by
  have h1 : ∑ j : Fin 8192, f j = (∑ i : Fin 6144, f ⟨i.val, by omega⟩) + ∑ i : Fin 2048, f ⟨6144 + i.val, by omega⟩ :=
    Fin.sum_univ_add (a := 6144) (b := 2048) f
  have h2 : (∑ i : Fin 6144, f ⟨i.val, by omega⟩) = (∑ i : Fin 4096, f ⟨i.val, by omega⟩) + ∑ i : Fin 2048, f ⟨4096 + i.val, by omega⟩ :=
    Fin.sum_univ_add (a := 4096) (b := 2048) fun i => f ⟨i.val, by omega⟩
  have h3 : (∑ i : Fin 4096, f ⟨i.val, by omega⟩) = (∑ i : Fin 2048, f ⟨i.val, by omega⟩) + ∑ i : Fin 2048, f ⟨2048 + i.val, by omega⟩ :=
    Fin.sum_univ_add (a := 2048) (b := 2048) fun i => f ⟨i.val, by omega⟩
  rw [h1, h2, h3]

/-- ROW `i`: zero plus the sum of the terms over all 8192 indices is the four chunk sums added onto zero in order. -/
theorem row_chunks (T P : Fin 8192 → EReal) (i : Fin 8192) (z : EReal) :
    z + ∑ k : Fin 8192, term (T i) (T i * T i) (T k) (P k)
      = (((z + ∑ q : Fin 2048, term (T i) (T i * T i) (T ⟨q.val, by omega⟩) (P ⟨q.val, by omega⟩))
          + ∑ q : Fin 2048, term (T i) (T i * T i) (T ⟨2048 + q.val, by omega⟩) (P ⟨2048 + q.val, by omega⟩))
          + ∑ q : Fin 2048, term (T i) (T i * T i) (T ⟨4096 + q.val, by omega⟩) (P ⟨4096 + q.val, by omega⟩))
          + ∑ q : Fin 2048, term (T i) (T i * T i) (T ⟨6144 + q.val, by omega⟩) (P ⟨6144 + q.val, by omega⟩) := by
  rw [sum_four_chunks fun k => term (T i) (T i * T i) (T k) (P k)]
  simp only [add_assoc]

end Cert.CoxSum

end
-- ==== Proof.IdealPay.lean ====
/-
  The arithmetic of the Cox denominator kernel's body, read at one row — at the exact (extended-real) instance.

  For row `r` of the block the body holds the time `a = t_r` (as a column) and its square `s`; against a chunk of
  2048 times `tj` and predictions `pj` it forms, lane by lane, the term "`exp pj` if `a · tj ≥ s`, else `0`" and
  sums the lanes. Four chunks are added onto a zero accumulator one after the other.
-/
import proofs.«108566_j4389456576888_2_alg».proof.Proof.Gen.KernelIdeal.Skeleton
import proofs.«108566_j4389456576888_2_alg».proof.Proof.LibColumns
import proofs.«108566_j4389456576888_2_alg».proof.Proof.CoxSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Idealize.ShloMosaic Idealize.ShloMosaic.ValueIdx Cert.KernelIdeal Cert.KernelIdeal.Gen Cert.CoxSum

/-- A chunk's lane sum at row `r`: the sum over the chunk's 2048 lanes of the lane's term, at the row's time
    `v1 (r, 0)` and threshold `v2 (r, 0)`. -/
theorem chunk_apply (v1 v2 : FVec Ideal S1024x1 .f32) (tj pj : Vec Ideal S2048 .f32)
    (h1 : S1024x1.Broadcasts S1024x2048) (h2 : S2048.ShapeCasts S1x2048) (h3 : S1x2048.Broadcasts S1024x2048)
    (h4 : S1x2048.ShapeCasts S1x2048) (h5 : S1024x2048.Reduces [1] S1024)
    (hacc : (0x00000000#32 : BitVec 32) = 0x00000000#32) (r : Fin 1024) :
    multiReduction (F := Ideal) .add [1] S1024
      (select (cmpf .oge (mulf (broadcastTo S1024x2048 v1 h1) (broadcastTo S1024x2048 (shapeCast S1x2048 tj h2) h3)) (broadcastTo S1024x2048 v2 h1))
        (broadcastTo S1024x2048 (shapeCast S1x2048 (shapeCast S1x2048 (exp pj) h2) h4) h3)
        (broadcast S1024x2048 (Scalar.ofBits .f32 0x00000000#32)))
      0x00000000#32 h5 (.inl rfl) hacc (ix1 r)
    = ∑ q : Fin 2048, term (v1 (ix2 r (0 : Fin 1))) (v2 (ix2 r (0 : Fin 1))) (tj (ix1 q)) (pj (ix1 q)) := by
  refine (Ideal.multiReduction_add_single _ 0x00000000#32 h5 (.inl rfl) hacc (ix1 r)).trans ?_
  refine Finset.sum_congr rfl fun (q : Fin 2048) _ => ?_
  have hl : h5.lift (ix1 r) q = (ix2 r q : S1024x2048.Idx) := funext fun a => Fin.ext (by match a with | ⟨0, _⟩ => rfl | ⟨1, _⟩ => rfl)
  rw [hl, select_apply, cmpf_apply, mulf_apply, broadcastTo_a1_ab_apply, broadcastTo_a1_ab_apply, broadcastTo_1b_ab_apply,
    broadcastTo_1b_ab_apply, shapeCast_a_1a_apply, shapeCast_self, shapeCast_a_1a_apply, broadcast_apply]
  rfl

/-- The time block cast to a column reads the block's entry. -/
theorem pay2_apply (x0 : Vec Ideal S1024 .f32) (r : Fin 1024) : k0_pay2 x0 (ix2 r (0 : Fin 1)) = x0 (ix1 r) := by
  unfold k0_pay2
  exact shapeCast_a_a1_apply x0 _ r 0

/-- The squared column reads the entry's square. -/
theorem pay3_apply (x0 : Vec Ideal S1024 .f32) (r : Fin 1024) : k0_pay3 x0 (ix2 r (0 : Fin 1)) = x0 (ix1 r) * x0 (ix1 r) := by
  unfold k0_pay3
  show k0_pay2 x0 (ix2 r (0 : Fin 1)) * k0_pay2 x0 (ix2 r (0 : Fin 1)) = _
  rw [pay2_apply]

/-- The first two chunks, onto the zero accumulator. -/
theorem pay4_apply (x0 : Vec Ideal S1024 .f32) (v7 v9 v27 v29 : Vec Ideal S2048 .f32) (r : Fin 1024) :
    k0_pay4 x0 v7 v9 v27 v29 (ix1 r)
      = (Ideal.ofBits .f32 0x00000000#32 + ∑ q : Fin 2048, term (x0 (ix1 r)) (x0 (ix1 r) * x0 (ix1 r)) (v7 (ix1 q)) (v9 (ix1 q)))
        + ∑ q : Fin 2048, term (x0 (ix1 r)) (x0 (ix1 r) * x0 (ix1 r)) (v27 (ix1 q)) (v29 (ix1 q)) := by
  unfold k0_pay4
  refine (congrArg₂ (· + ·) (congrArg₂ (· + ·) rfl (chunk_apply (k0_pay2 x0) (k0_pay3 x0) v7 v9 _ _ _ _ _ _ r))
    (chunk_apply (k0_pay2 x0) (k0_pay3 x0) v27 v29 _ _ _ _ _ _ r)).trans ?_
  rw [pay2_apply, pay3_apply]
  rfl

/-- The last two chunks, onto what the first two left. -/
theorem pay1_apply (v1 v2 : FVec Ideal S1024x1 .f32) (v43 : FVec Ideal S1024 .f32) (v47 v49 v67 v69 : Vec Ideal S2048 .f32) (r : Fin 1024) :
    k0_pay1 v1 v2 v43 v47 v49 v67 v69 (ix1 r)
      = (v43 (ix1 r) + ∑ q : Fin 2048, term (v1 (ix2 r (0 : Fin 1))) (v2 (ix2 r (0 : Fin 1))) (v47 (ix1 q)) (v49 (ix1 q)))
        + ∑ q : Fin 2048, term (v1 (ix2 r (0 : Fin 1))) (v2 (ix2 r (0 : Fin 1))) (v67 (ix1 q)) (v69 (ix1 q)) := by
  unfold k0_pay1
  exact congrArg₂ (· + ·) (congrArg₂ (· + ·) rfl (chunk_apply v1 v2 v47 v49 _ _ _ _ _ _ r)) (chunk_apply v1 v2 v67 v69 _ _ _ _ _ _ r)

/-- THE STORE'S VALUE at row `r`: four chunk sums onto zero, in order. -/
theorem store_apply (x0 : Vec Ideal S1024 .f32) (v7 v9 v27 v29 v47 v49 v67 v69 : Vec Ideal S2048 .f32) (r : Fin 1024) :
    k0_pay1 (k0_pay2 x0) (k0_pay3 x0) (k0_pay4 x0 v7 v9 v27 v29) v47 v49 v67 v69 (ix1 r)
      = (((Ideal.ofBits .f32 0x00000000#32 + ∑ q : Fin 2048, term (x0 (ix1 r)) (x0 (ix1 r) * x0 (ix1 r)) (v7 (ix1 q)) (v9 (ix1 q)))
          + ∑ q : Fin 2048, term (x0 (ix1 r)) (x0 (ix1 r) * x0 (ix1 r)) (v27 (ix1 q)) (v29 (ix1 q)))
          + ∑ q : Fin 2048, term (x0 (ix1 r)) (x0 (ix1 r) * x0 (ix1 r)) (v47 (ix1 q)) (v49 (ix1 q)))
          + ∑ q : Fin 2048, term (x0 (ix1 r)) (x0 (ix1 r) * x0 (ix1 r)) (v67 (ix1 q)) (v69 (ix1 q)) := by
  rw [pay1_apply, pay4_apply, pay2_apply, pay3_apply]

end Cert.KernelIdeal.Pay

end
-- ==== Proof.IdealValue.lean ====
/-
  What the result array holds after the pallas_call — at the exact (extended-real) instance.

  Point `t` of the grid writes back block `t` (rows `1024 t … 1024 t + 1023`) of the result, and the eight blocks
  tile it. Row `i` of a block is computed from the time `T i` (read through the blockwise window) against ALL
  times and predictions (read through the two whole-array windows, four chunks of 2048 at a time): the four chunk
  sums of the per-index terms, added onto zero in order.
-/
import proofs.«108566_j4389456576888_2_alg».proof.Proof.IdealBody
import proofs.«108566_j4389456576888_2_alg».proof.Proof.IdealPay
import Idealize.ShloMosaic.Lib.Pipeline.Value

set_option maxRecDepth 16384

noncomputable section

namespace Cert.KernelIdeal.ArrValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Body Cert.KernelIdeal.Pay Cert.CoxSum

/-- Row `i`'s denominator from the time array `T` and the prediction array `P`: the four chunk sums of the terms
    at time `T i` and threshold `T i · T i`, onto the zero word's value. -/
def denomK (T P : S8192.Idx → EReal) : S8192.Idx → EReal := fun i =>
  (((Ideal.ofBits .f32 0x00000000#32
      + ∑ q : Fin 2048, term (T i) (T i * T i) (T (ix1 ⟨q.val, by omega⟩)) (P (ix1 ⟨q.val, by omega⟩)))
      + ∑ q : Fin 2048, term (T i) (T i * T i) (T (ix1 ⟨2048 + q.val, by omega⟩)) (P (ix1 ⟨2048 + q.val, by omega⟩)))
      + ∑ q : Fin 2048, term (T i) (T i * T i) (T (ix1 ⟨4096 + q.val, by omega⟩)) (P (ix1 ⟨4096 + q.val, by omega⟩)))
      + ∑ q : Fin 2048, term (T i) (T i * T i) (T (ix1 ⟨6144 + q.val, by omega⟩)) (P (ix1 ⟨6144 + q.val, by omega⟩))

theorem hz : (![0] : Fin 1 → Nat) = fun _ => 0 := funext fun a => by fin_cases a; rfl

/-- A chunk load reads the buffer at the chunk's offset plus the lane. -/
theorem ld_chunk (x : Vec Ideal S8192 .f32) (k : Fin 4) (q : Fin 2048) :
    View.ld x (rChunk k) (ix1 q) = x (ix1 ⟨2048 * k.val + q.val, by have := k.isLt; have := q.isLt; omega⟩) := by
  show x ((rChunk k).idx (ix1 q)) = _
  refine congrArg x (funext fun a => Fin.ext ?_)
  match a with
  | ⟨0, _⟩ =>
    show k0_off1 (BitVec.ofNat 32 k.val) 0 + 1 * q.val = 2048 * k.val + q.val
    rw [k0_off1_eq k]
    show 2048 * k.val + 1 * q.val = 2048 * k.val + q.val
    omega

theorem ld_chunk0 (x : Vec Ideal S8192 .f32) (q : Fin 2048) :
    View.ld x (rChunk 0) (ix1 q) = x (ix1 ⟨q.val, by have := q.isLt; omega⟩) :=
  (ld_chunk x 0 q).trans (congrArg (fun n => x (ix1 n)) (Fin.ext (by show 2048 * 0 + q.val = q.val; omega)))
theorem ld_chunk1 (x : Vec Ideal S8192 .f32) (q : Fin 2048) :
    View.ld x (rChunk 1) (ix1 q) = x (ix1 ⟨2048 + q.val, by have := q.isLt; omega⟩) :=
  (ld_chunk x 1 q).trans (congrArg (fun n => x (ix1 n)) (Fin.ext (by show 2048 * 1 + q.val = 2048 + q.val; omega)))
theorem ld_chunk2 (x : Vec Ideal S8192 .f32) (q : Fin 2048) :
    View.ld x (rChunk 2) (ix1 q) = x (ix1 ⟨4096 + q.val, by have := q.isLt; omega⟩) :=
  (ld_chunk x 2 q).trans (congrArg (fun n => x (ix1 n)) (Fin.ext (by show 2048 * 2 + q.val = 4096 + q.val; omega)))
theorem ld_chunk3 (x : Vec Ideal S8192 .f32) (q : Fin 2048) :
    View.ld x (rChunk 3) (ix1 q) = x (ix1 ⟨6144 + q.val, by have := q.isLt; omega⟩) :=
  (ld_chunk x 3 q).trans (congrArg (fun n => x (ix1 n)) (Fin.ext (by show 2048 * 3 + q.val = 6144 + q.val; omega)))

/-- THE STORE'S VALUE at row `r`, over the three buffers the body loads from: the block's time `x0 r` against all of
    `x1` and `x2`, chunk by chunk. -/
theorem row_value (x0 : Vec Ideal S1024 .f32) (x1 x2 : Vec Ideal S8192 .f32) (r : Fin 1024) :
    k0_pay1 (k0_pay2 (View.ld x0 rBlk)) (k0_pay3 (View.ld x0 rBlk))
        (k0_pay4 (View.ld x0 rBlk) (View.ld x1 (rChunk 0)) (View.ld x2 (rChunk 0)) (View.ld x1 (rChunk 1)) (View.ld x2 (rChunk 1)))
        (View.ld x1 (rChunk 2)) (View.ld x2 (rChunk 2)) (View.ld x1 (rChunk 3)) (View.ld x2 (rChunk 3)) (ix1 r)
      = (((Ideal.ofBits .f32 0x00000000#32
          + ∑ q : Fin 2048, term (x0 (ix1 r)) (x0 (ix1 r) * x0 (ix1 r)) (x1 (ix1 ⟨q.val, by omega⟩)) (x2 (ix1 ⟨q.val, by omega⟩)))
          + ∑ q : Fin 2048, term (x0 (ix1 r)) (x0 (ix1 r) * x0 (ix1 r)) (x1 (ix1 ⟨2048 + q.val, by omega⟩)) (x2 (ix1 ⟨2048 + q.val, by omega⟩)))
          + ∑ q : Fin 2048, term (x0 (ix1 r)) (x0 (ix1 r) * x0 (ix1 r)) (x1 (ix1 ⟨4096 + q.val, by omega⟩)) (x2 (ix1 ⟨4096 + q.val, by omega⟩)))
          + ∑ q : Fin 2048, term (x0 (ix1 r)) (x0 (ix1 r) * x0 (ix1 r)) (x1 (ix1 ⟨6144 + q.val, by omega⟩)) (x2 (ix1 ⟨6144 + q.val, by omega⟩)) := by
  rw [store_apply, View.ld_unit_zero (S := S1024) hz]
  refine congrArg₂ (· + ·) (congrArg₂ (· + ·) (congrArg₂ (· + ·) (congrArg₂ (· + ·) rfl ?_) ?_) ?_) ?_
  · exact Finset.sum_congr rfl fun q _ => by rw [ld_chunk0, ld_chunk0]
  · exact Finset.sum_congr rfl fun q _ => by rw [ld_chunk1, ld_chunk1]
  · exact Finset.sum_congr rfl fun q _ => by rw [ld_chunk2, ld_chunk2]
  · exact Finset.sum_congr rfl fun q _ => by rw [ld_chunk3, ld_chunk3]

/-- The printed index maps over the grid: the blockwise time window moves with the result window, the two whole
    windows stay at block 0, and the result's block index is the point's number. -/
theorem idx_facts : ∀ t : Fin cfg0.N, win0_0.index t (0 : Fin 1) = win0_3.index t (0 : Fin 1)
    ∧ win0_1.index t (0 : Fin 1) = 0 ∧ win0_2.index t (0 : Fin 1) = 0 ∧ win0_3.index t (0 : Fin 1) = t.val :=
  (by decide +kernel : ∀ t : Fin grid0.N, _)

variable (V : (c : Dev nD) → (b : Ref sig .tc) → Buf (Elt Ideal) ((c : Thread nD τ).loc b))

/-- WHAT POINT `t` WRITES BACK is block `t` of `denomK` of the time and prediction arrays as the region finds them. -/
theorem flushed_eq (c : Dev nD) (t : Fin cfg0.N) :
    (dat V c).flushed 3 t = ((cfg0.win 3).blk t).view.read (Elt Ideal) (denomK (V c main_arg1) (V c main_arg0)) := by
  show (cfg0.win 3).cut (grid0.coords t) ((dat V c).after 3 t) = _
  rw [after_3]
  unfold outBlk
  rw [View.canon_unit_zero hz]
  obtain ⟨e0, e1, e2, e3⟩ := idx_facts t
  funext j
  obtain ⟨r, rfl⟩ : ∃ r : Fin 1024, j = ix1 r := ⟨j 0, eq_ix1 j⟩
  refine (row_value (iblk V c 0 t) (iblk V c 1 t) (iblk V c 2 t) r).trans ?_
  have h0 : iblk V c 0 t (ix1 r) = V c main_arg1 (((cfg0.win 3).blk t).view.emb (ix1 r)) := by
    show V c main_arg1 (((cfg0.win 0).blk t).view.emb (ix1 r)) = _
    refine congrArg (V c main_arg1) (funext fun a => Fin.ext ?_)
    match a with
    | ⟨0, _⟩ => show win0_0.index t (0 : Fin 1) * 1024 + 1 * r.val = win0_3.index t (0 : Fin 1) * 1024 + 1 * r.val; rw [e0]
  have h1 : ∀ n : Fin 8192, iblk V c 1 t (ix1 n) = V c main_arg1 (ix1 n) := fun n => by
    show V c main_arg1 (((cfg0.win 1).blk t).view.emb (ix1 n)) = _
    refine congrArg (V c main_arg1) (funext fun a => Fin.ext ?_)
    match a with
    | ⟨0, _⟩ => show win0_1.index t (0 : Fin 1) * 8192 + 1 * n.val = n.val; rw [e1]; omega
  have h2 : ∀ n : Fin 8192, iblk V c 2 t (ix1 n) = V c main_arg0 (ix1 n) := fun n => by
    show V c main_arg0 (((cfg0.win 2).blk t).view.emb (ix1 n)) = _
    refine congrArg (V c main_arg0) (funext fun a => Fin.ext ?_)
    match a with
    | ⟨0, _⟩ => show win0_2.index t (0 : Fin 1) * 8192 + 1 * n.val = n.val; rw [e2]; omega
  show _ = denomK (V c main_arg1) (V c main_arg0) (((cfg0.win 3).blk t).view.emb (ix1 r))
  unfold denomK
  simp only [h0, h1, h2]

/-- An index of the result array is in point `t`'s block iff its coordinate is in that block's range. -/
theorem mem_blk (t : Fin cfg0.N) (i : S8192.Idx) :
    i ∈ ((cfg0.win 3).blk t).view.set ↔ ∀ a : Fin 1, win0_3.index t a * S1024.size a ≤ (i a).val ∧ (i a).val < win0_3.index t a * S1024.size a + S1024.size a := by
  show i ∈ ((View.whole main_v0).slice (win0_3.rect t)).set ↔ _
  rw [View.set_slice_whole, Rect.mem_set_unit]
  exact Iff.rfl

/-- THE COVER: row `n` is in the block of point `n / 1024`, which is written back. -/
theorem cover (i : S8192.Idx) : ∃ t : Fin cfg0.N, (cfg0.win 3).flush t = true ∧ i ∈ ((cfg0.win 3).blk t).view.set := by
  have hi : (i 0).val < 8192 := (i 0).isLt
  have hN : cfg0.N = 8 := N_0
  let t : Fin cfg0.N := ⟨(i 0).val / 1024, by rw [hN]; omega⟩
  refine ⟨t, flush0_3 t, ?_⟩
  rw [mem_blk]
  intro a
  obtain ⟨-, -, -, e3⟩ := idx_facts t
  match a with
  | ⟨0, _⟩ =>
    show win0_3.index t (0 : Fin 1) * 1024 ≤ (i 0).val ∧ (i 0).val < win0_3.index t (0 : Fin 1) * 1024 + 1024
    rw [e3]
    show (i 0).val / 1024 * 1024 ≤ (i 0).val ∧ (i 0).val < (i 0).val / 1024 * 1024 + 1024
    omega

/-- THE RESULT ARRAY after the region: `denomK` of the time and prediction arrays as the region found them. -/
theorem final (c : Dev nD) : (dat V c).arrAt 3 cfg0.N = denomK (V c main_arg1) (V c main_arg0) :=
  (dat V c).arrAt_eq_of_cover 3 _ (fun t _ => flushed_eq V c t) cover

end Cert.KernelIdeal.ArrValue

end
-- ==== Proof.RefDenom.lean ====
/-
  The reference program's per-row denominators, read at a row — at the exact (extended-real) instance.

  The reference builds the 8192 × 8192 matrix of products `t_a · t_b`, compares it with the squares `t_b · t_b`
  laid along the rows, TRANSPOSES the comparison, reads the bits as numbers, multiplies row-wise by the hazards
  `exp p_k` and sums each row from zero. Entry `(i, k)` of the transposed comparison is entry `(k, i)` of the
  original: `t_k · t_i ≥ t_i · t_i`. So row `i` is zero plus the sum over `k` of the per-index term.
-/
import proofs.«108566_j4389456576888_2_alg».proof.Proof.Gen.ReferenceIdeal.Read
import proofs.«108566_j4389456576888_2_alg».proof.Proof.CoxSum
import Idealize.ShloMosaic.Lib.ValueIdx

noncomputable section

namespace Cert.ReferenceIdeal.RefDenom

open Idealize.ShloMosaic Idealize.ShloMosaic.ValueIdx
open Cert.ReferenceIdeal Cert.ReferenceIdeal.Read Cert.CoxSum

/-- ROW `i` of the reference's denominators, from the prediction array `P` and the time array `T`. -/
theorem denom_apply (P T : (⟨S8192, .f32⟩ : BufTy).Contents (Elt Ideal)) (i : Fin 8192) :
    val_main_v15 (F := Ideal) P T (ix1 i)
      = Ideal.ofBits .f32 0x00000000#32 + ∑ k : Fin 8192, term (T (ix1 i)) (T (ix1 i) * T (ix1 i)) (T (ix1 k)) (P (ix1 k)) := by
  rw [val_main_v15_apply]
  refine congrArg₂ (· + ·) rfl (Finset.sum_congr rfl fun k _ => ?_)
  have ea : idx_main_v0 (idx_main_v2 (idx_main_v9 (idx_main_v15 (ix1 i) k))) = ix1 k :=
    funext fun a => Fin.ext (by match a with | ⟨0, _⟩ => rfl)
  have eb : idx_main_v1 (idx_main_v3 (idx_main_v9 (idx_main_v15 (ix1 i) k))) = ix1 i :=
    funext fun a => Fin.ext (by match a with | ⟨0, _⟩ => rfl)
  have ec : idx_main_v6 (idx_main_v7 (idx_main_v9 (idx_main_v15 (ix1 i) k))) = ix1 i :=
    funext fun a => Fin.ext (by match a with | ⟨0, _⟩ => rfl)
  have ed : idx_main_v12 (idx_main_v13 (idx_main_v15 (ix1 i) k)) = ix1 k :=
    funext fun a => Fin.ext (by match a with | ⟨0, _⟩ => rfl)
  rw [val_main_v14_apply, val_main_v11_apply, val_main_v9_apply, val_main_v8_apply, val_main_v4_apply, val_main_v2_apply,
    val_main_v0_apply, val_main_v3_apply, val_main_v1_apply, val_main_v7_apply, val_main_v6_apply, val_main_v5_apply,
    val_main_v13_apply, val_main_v12_apply, val_main_v10_apply, ea, eb, ec, ed]
  exact term_host (T (ix1 i)) (T (ix1 k)) (P (ix1 k))

end Cert.ReferenceIdeal.RefDenom

end
-- ==== Proof.IdealLoss.lean ====
/-
  The loss from the per-row denominators, and the kernel program's result as that loss — at the exact instance.

  Both programs end with the same host arithmetic: with `d` the denominators, `p` the predictions and `e` the
  event flags, the loss is `−(Σ_i [e_i = 1] · (p_i − log d_i)) / float(Σ_i e_i)`. It is stated once, as one function
  of `d`, `p` and `e`; the two programs differ only in how `d` was computed.
-/
import proofs.«108566_j4389456576888_2_alg».proof.Proof.IdealRun
import proofs.«108566_j4389456576888_2_alg».proof.Proof.IdealValue
import proofs.«108566_j4389456576888_2_alg».proof.Proof.RefDenom
import Idealize.ShloMosaic.Lib.StableHlo.Run

noncomputable section

namespace Cert.KernelIdeal.Loss

open Idealize.ShloMosaic Idealize.ShloMosaic.TcCoe Idealize.ShloMosaic.ValueIdx Idealize.ShloMosaic.StableHlo
open Idealize.SL Idealize.SL.Sem
open Cert.KernelIdeal Cert.KernelIdeal.Gen Cert.KernelIdeal.Body Cert.KernelIdeal.Run Cert.KernelIdeal.ArrValue Cert.CoxSum

/-- The loss as a function of the denominators `d`, the predictions `p` and the event flags `e`. -/
def lossTail (d p : (⟨S8192, .f32⟩ : BufTy).Contents (Elt Ideal)) (e : (⟨S8192, .i32⟩ : BufTy).Contents (Elt Ideal)) :
    (⟨S_, .f32⟩ : BufTy).Contents (Elt Ideal) :=
  Host.divf (F := Ideal)
    (Host.negf (F := Ideal) (Host.reduceAdd (F := Ideal)
      (mulf (uitofp (F := Ideal) .f32 (cmpi .eq e (broadcastInDim S8192 ![] bcast_S_S8192 (constantI S_ 32 1#32))))
        (subf p (Host.log (F := Ideal) d)))
      (constant (F := Ideal) S_ .f32 0x00000000#32) reducesTo_S8192_S_d0 h_S_))
    (sitofp (F := Ideal) .f32 (Host.reduce IntOp.addi e (constantI S_ 32 0#32) reducesTo_S8192_S_d0 h_S_))

variable (m : (ℓ : Loc nD τ sig) → Buf (Elt Ideal) ℓ) (ρ : Dev nD → PrngReg)

/-- The host operations after the region compute the loss of what the region left. -/
theorem W2_v11 (c : Dev nD) :
    W2 m ρ c (Proc.devRef .tc main_v11)
      = lossTail (W1 m ρ c (Proc.devRef .tc main_v0)) (W1 m ρ c (Proc.devRef .tc main_arg0)) (W1 m ρ c (Proc.devRef .tc main_arg2)) := by
  show StableHlo.after hostOps1 (W1 m ρ c) (Proc.devRef .tc main_v11) = _
  after_results
  rfl

/-- THE KERNEL PROGRAM'S RESULT: the loss of the chunked denominators of the launch arrays. -/
theorem result_eq (c : Dev nD) :
    W2 m ρ c (Proc.devRef .tc main_v11)
      = lossTail (denomK (m ((c : Thread nD τ).loc main_arg1)) (m ((c : Thread nD τ).loc main_arg0)))
          (m ((c : Thread nD τ).loc main_arg0)) (m ((c : Thread nD τ).loc main_arg2)) := by
  rw [W2_v11, W1_v0, W1_of_ne m ρ c main_arg0 (by decide), W1_of_ne m ρ c main_arg2 (by decide)]
  unfold denom
  rw [final (V0 m ρ) c]

/-- The chunked denominators ARE the reference's: row by row, the four chunk sums onto zero are zero plus the sum
    over all indices. -/
theorem denomK_eq_ref (T P : (⟨S8192, .f32⟩ : BufTy).Contents (Elt Ideal)) :
    denomK T P = Cert.ReferenceIdeal.Read.val_main_v15 (F := Ideal) P T := by
  funext i
  obtain ⟨n, rfl⟩ : ∃ n : Fin 8192, i = ix1 n := ⟨i 0, eq_ix1 i⟩
  rw [Cert.ReferenceIdeal.RefDenom.denom_apply]
  exact (row_chunks (fun k => T (ix1 k)) (fun k => P (ix1 k)) n _).symm

/-- The reference's result is the same loss, of its own denominators. -/
theorem ref_result_eq (P T : (⟨S8192, .f32⟩ : BufTy).Contents (Elt Ideal)) (E : (⟨S8192, .i32⟩ : BufTy).Contents (Elt Ideal)) :
    Cert.ReferenceIdeal.Read.val_main_v26 (F := Ideal) P T E
      = lossTail (Cert.ReferenceIdeal.Read.val_main_v15 (F := Ideal) P T) P E := rfl

end Cert.KernelIdeal.Loss

end
-- ==== Proof.lean ====
/-
  The Cox partial-likelihood loss: a Pallas kernel for the per-row denominators against the jnp reference.

  With `t` the survival times, `p` the predictions and `e` the event flags (8192 entries each), row `i`'s
  denominator is the sum over all `j` of `exp p_j` wherever `t_i · t_j ≥ t_i · t_i`, and the loss is
  `−(Σ_i [e_i = 1] · (p_i − log d_i)) / float(Σ_i e_i)`.

  The kernel program computes the denominators in a pallas_call over 8 blocks of 1024 rows; each row selects
  between `exp p_j` and zero, lane by lane, and adds four chunks of 2048 lanes onto zero. The reference forms the
  8192 × 8192 comparison (written `t_j · t_i ≥ t_i · t_i`, transposed), reads the bits as 0 or 1, multiplies by
  `exp p_j` and sums each row at once. The two agree over the extended reals by the commutativity of the product,
  `1 · x = x`, `0 · x = 0` and the regrouping of a finite sum; no input need be finite for that. Both programs then
  apply the same host arithmetic to their denominators.

  The pallas_call reads the time array through TWO windows (block by block, and whole), so its run holds that
  array's two half shares, one per window; each program's frame is its run with the result dropped. The ideal pass
  rewrote nothing, so there is nothing to preserve beyond the text itself.
-/
import proofs.«108566_j4389456576888_2_alg».proof.Defs
import proofs.«108566_j4389456576888_2_alg».proof.Proof.Gen.Kernel
import proofs.«108566_j4389456576888_2_alg».proof.Proof.Gen.KernelIdeal
import proofs.«108566_j4389456576888_2_alg».proof.Proof.Gen.ReferenceIdeal
import proofs.«108566_j4389456576888_2_alg».proof.Proof.Gen.Pre_finite_inputs
import proofs.«108566_j4389456576888_2_alg».proof.Proof.Gen.ReferenceIdeal.Run
import proofs.«108566_j4389456576888_2_alg».proof.Proof.BitsRun
import proofs.«108566_j4389456576888_2_alg».proof.Proof.IdealRun
import proofs.«108566_j4389456576888_2_alg».proof.Proof.IdealLoss
import Idealize.ShloMosaic.Adequacy
import Idealize.ShloMosaic.Init

noncomputable section

namespace Cert.Proof

open Idealize.ShloMosaic Idealize.ShloMosaic.TcCoe Idealize.SL.Sem

/-- The word-level kernel program runs to the end, faults nowhere and leaves its arguments as launched. -/
theorem frame_k : Cert.frame_Kernel := fun m ρ _ =>
  (θ_run Cert.Kernel.defs _ _).mono (fun _ h c => (h c).2) (Cert.Kernel.Run.run (F := Bits) m ρ)

/-- So does its idealization. -/
theorem frame_ki : Cert.frame_KernelIdeal := fun m ρ _ =>
  (θ_run Cert.KernelIdeal.defs _ _).mono (fun _ h c => (h c).2) (Cert.KernelIdeal.Run.run (F := Ideal) m ρ)

/-- And the reference: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end at the loss of the same denominators. -/
theorem algebraic : Cert.algebraic_KernelIdeal_ReferenceIdeal := by
  intro m ρ m' ρ' _ hagree
  refine ⟨fun c => Cert.KernelIdeal.Run.W2 m ρ c (Proc.devRef .tc Cert.KernelIdeal.main_v11),
    Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2]
  show _ = Cert.KernelIdeal.Run.W2 m ρ c (Proc.devRef .tc Cert.KernelIdeal.main_v11)
  rw [Cert.KernelIdeal.Loss.result_eq, Cert.KernelIdeal.Loss.denomK_eq_ref]
  exact Cert.KernelIdeal.Loss.ref_result_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
